-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384 : Shape := ⟨1, ![16384]⟩
abbrev S1000x128 : Shape := ⟨2, ![1000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S16384x128 .f32) (main_arg1 : IVec S16384 32) (main_arg2 : FVec F S1000x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S16384x128 : Shape := ⟨2, ![16384, 128]⟩
abbrev S16384 : Shape := ⟨1, ![16384]⟩
abbrev S1000x128 : Shape := ⟨2, ![1000, 128]⟩
abbrev S1x16384 : Shape := ⟨2, ![1, 16384]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S16x8x128 : Shape := ⟨3, ![16, 8, 128]⟩
abbrev S1024x128 : Shape := ⟨2, ![1024, 128]⟩
abbrev S1x1024 : Shape := ⟨2, ![1, 1024]⟩
abbrev S1x8x128 : Shape := ⟨3, ![1, 8, 128]⟩
abbrev S1024 : Shape := ⟨1, ![1024]⟩
abbrev S1024x1 : Shape := ⟨2, ![1024, 1]⟩
abbrev S128x1000 : Shape := ⟨2, ![128, 1000]⟩
abbrev S1024x1000 : Shape := ⟨2, ![1024, 1000]⟩
abbrev S1 : Shape := ⟨1, ![1]⟩
abbrev S1x1 : Shape := ⟨2, ![1, 1]⟩
abbrev S1x1x1 : Shape := ⟨3, ![1, 1, 1]⟩

abbrev nBuf : Space → Nat
  | .hbm => 14
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S1x16384, .i32⟩
  | .hbm, ⟨4, _⟩ => ⟨S1000x128, .f32⟩
  | .hbm, ⟨5, _⟩ => ⟨S_, .f32⟩
  | .hbm, ⟨6, _⟩ => ⟨S1000, .f32⟩
  | .hbm, ⟨7, _⟩ => ⟨S1000x1, .f32⟩
  | .hbm, ⟨8, _⟩ => ⟨S1x1000, .f32⟩
  | .hbm, ⟨9, _⟩ => ⟨S16x8x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1000x128, .f32⟩
  | .local _ .vmem, ⟨3, _⟩ => ⟨S1x1000, .f32⟩
  | .local _ .vmem, ⟨4, _⟩ => ⟨S1x1024, .i32⟩
  | .local _ .vmem, ⟨5, _⟩ => ⟨S1x1024, .i32⟩
  | .local _ .vmem, ⟨6, _⟩ => ⟨S1x8x128, .f32⟩
  | .local _ .vmem, ⟨7, _⟩ => ⟨S1x8x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S1x16384 : S16384.ShapeCasts S1x16384
  reducesTo_S1000x128_S1000_d1 : S1000x128.ReducesTo [1] S1000
  h_S_ : 0 < S_.numel
  bcast_S1000_S1000x1_0 : S1000.BroadcastsInDim S1000x1 (![0] : Fin 1 → Fin S1000x1.rank)
  shapeCasts_S1000x1_S1x1000 : S1000x1.ShapeCasts S1x1000
  inb_S1024x128_S1024x128_0_0 : ∀ a, (![0, 0] : Fin 2 → Nat) a + S1024x128.size a ≤ S1024x128.size a
  h_S1024x128 : 0 < S1024x128.numel
  inb_S1000x128_S1000x128_0_0 : ∀ a, (![0, 0] : Fin 2 → Nat) a + S1000x128.size a ≤ S1000x128.size a
  h_S1000x128 : 0 < S1000x128.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S1024x128_S1024 : S1024x128.Reduces [1] S1024
  shapeCasts_S1024_S1024x1 : S1024.ShapeCasts S1024x1
  bitsLt_bf16_f32 : FTy.bits .bf16 < FTy.bits .f32
  transposes_S1000x128_p1_0_S128x1000 : S1000x128.Transposes [1, 0] S128x1000
  broadcasts_S1024x1_S1024x1000 : S1024x1.Broadcasts S1024x1000
  broadcasts_S1x1000_S1024x1000 : S1x1000.Broadcasts S1024x1000
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1x1024_p1_0_S1024x1 : S1x1024.Transposes [1, 0] S1024x1
  iota_S1024x1000_d1_w32 : S1024x1000.Iotas .tc 32 [1]
  reduces_S1024x1000_S1000 : S1024x1000.Reduces [0] S1000
  shapeCasts_S1000_S1x1000 : S1000.ShapeCasts S1x1000
  reduces_S1x1000_S1 : S1x1000.Reduces [1] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S16x8x128_S_d0_1_2 : S16x8x128.ReducesTo [0, 1, 2] S_
  dot_S1024x128_S128x1000_S1024x1000_1_0_0_1_n_n_wf : DotDims.WF S1024x128 S128x1000 S1024x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .i32 = 32 ∨ (Rect.block (s := S1x16384) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

def dot_S1024x128_S128x1000_S1024x1000_1_0_0_1_n_n : DotDims S1024x128 S128x1000 S1024x1000 where
  lhsContracting := [1]
  rhsContracting := [0]
  lhsNonContracting := [0]
  rhsNonContracting := [1]
  lhsBatch := []
  rhsBatch := []
  wf := dot_S1024x128_S128x1000_S1024x1000_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384 : Shape := ⟨1, ![16384]⟩
abbrev S1000x128 : Shape := ⟨2, ![1000, 128]⟩
abbrev S_ : Shape := ⟨0, ![]⟩
abbrev S1000 : Shape := ⟨1, ![1000]⟩
abbrev S16384x1000 : Shape := ⟨2, ![16384, 1000]⟩
abbrev S16384x1 : Shape := ⟨2, ![16384, 1]⟩
abbrev S1x1000 : Shape := ⟨2, ![1, 1000]⟩

abbrev nBuf : Space → Nat
  | .hbm => 39
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S16384x128, .f32⟩
  | .hbm, ⟨4, _⟩ => ⟨S_, .f32⟩
  | .hbm, ⟨5, _⟩ => ⟨S16384, .f32⟩
  | .hbm, ⟨6, _⟩ => ⟨S1000x128, .f32⟩
  | .hbm, ⟨7, _⟩ => ⟨S_, .f32⟩
  | .hbm, ⟨8, _⟩ => ⟨S1000, .f32⟩
  | .hbm, ⟨9, _⟩ => ⟨S16384x1000, .f32⟩
  | .hbm, ⟨10, _⟩ => ⟨S16384x1, .f32⟩
  | .hbm, ⟨11, _⟩ => ⟨S1x1000, .f32⟩
  | .hbm, ⟨12, _⟩ => ⟨S16384x1000, .f32⟩
  | .hbm, ⟨13, _⟩ => ⟨S16384x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | .hbm, ⟨22, _⟩ => ⟨S_, .f32⟩
  | .hbm, ⟨23, _⟩ => ⟨S16384x1000, .f32⟩
  | .hbm, ⟨24, _⟩ => ⟨S16384x1000, .f32⟩
  | .hbm, ⟨25, _⟩ => ⟨S16384x1, .i32⟩
  | .hbm, ⟨26, _⟩ => ⟨S1000, .i32⟩
  | .hbm, ⟨27, _⟩ => ⟨S1x1000, .i32⟩
  | .hbm, ⟨28, _⟩ => ⟨S16384x1000, .i32⟩
  | .hbm, ⟨29, _⟩ => ⟨S16384x1000, .i32⟩
  | .hbm, ⟨30, _⟩ => ⟨S16384x1000, .i1⟩
  | .hbm, ⟨31, _⟩ => ⟨S_, .f32⟩
  | .hbm, ⟨32, _⟩ => ⟨S_, .f32⟩
  | .hbm, ⟨33, _⟩ => ⟨S16384x1000, .f32⟩
  | .hbm, ⟨34, _⟩ => ⟨S16384x1000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  reducesTo_S1000x128_S1000_d1 : S1000x128.ReducesTo [1] S1000
  bcast_S16384_S16384x1_0 : S16384.BroadcastsInDim S16384x1 (![0] : Fin 1 → Fin S16384x1.rank)
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S16384x1000 : S_.BroadcastsInDim S16384x1000 (![] : Fin 0 → Fin S16384x1000.rank)
  reducesTo_S16384x1000_S_d0_1 : S16384x1000.ReducesTo [0, 1] S_
  dot_S16384x128_S1000x128_S16384x1000_1_1_0_0_n_n_wf : DotDims.WF S16384x128 S1000x128 S16384x1000 [1] [1] [0] [0] [] []

variable [Facts₀]

def dot_S16384x128_S1000x128_S16384x1000_1_1_0_0_n_n : DotDims S16384x128 S1000x128 S16384x1000 where
  lhsContracting := [1]
  rhsContracting := [1]
  lhsNonContracting := [0]
  rhsNonContracting := [0]
  lhsBatch := []
  rhsBatch := []
  wf := dot_S16384x128_S1000x128_S16384x1000_1_1_0_0_n_n_wf

class Facts : Prop extends Facts₀ where

variable [Facts]
-- ==== Proof.Hinge.lean ====
/-
  What both programs compute, as one function of the argument arrays.  For sample row i and class j the squared
  distance is |f_i|² + |c_j|² − 2·⟨f_i, c_j⟩, the hinge is max(1 − distance, 0), and the term is dropped (zero) where
  j is the sample's own class.  The loss is the sum of all 16384·1000 terms divided by 16384.  Written over the
  extended reals with the float literals kept as their patterns (the same pattern on both sides is never
  evaluated).
-/
import Idealize.ShloMosaic.PureOps.Ideal
import Idealize.ShloMosaic.Lib.ValueIdx

noncomputable section

open scoped BigOperators

namespace Cert.Hinge

open Idealize.ShloMosaic Idealize.ShloMosaic.ValueIdx

/-- The masked hinge term of sample row `i` against class `j`. -/
def term (x0 : (⟨2, ![16384, 128]⟩ : Shape).Idx → EReal) (x1 : (⟨1, ![16384]⟩ : Shape).Idx → BitVec 32)
    (x2 : (⟨2, ![1000, 128]⟩ : Shape).Idx → EReal) (i : Fin 16384) (j : Fin 1000) : EReal :=
  Scalar.select (IntOp.cmpi .ne (x1 (ix1 i)) (BitVec.ofNat 32 j.val))
    (max (Ideal.ofBits .f32 0x3F800000#32
        - (((Ideal.ofBits .f32 0x00000000#32 + ∑ k : Fin 128, x0 (ix2 i k) * x0 (ix2 i k))
            + (Ideal.ofBits .f32 0x00000000#32 + ∑ k : Fin 128, x2 (ix2 j k) * x2 (ix2 j k)))
          - Ideal.ofBits .f32 0x40000000#32 * ∑ k : Fin 128, x0 (ix2 i k) * x2 (ix2 j k)))
      (Ideal.ofBits .f32 0x00000000#32))
    (Ideal.ofBits .f32 0x00000000#32)

/-- The loss: every term summed, divided by the number of samples. -/
def loss (x0 : (⟨2, ![16384, 128]⟩ : Shape).Idx → EReal) (x1 : (⟨1, ![16384]⟩ : Shape).Idx → BitVec 32)
    (x2 : (⟨2, ![1000, 128]⟩ : Shape).Idx → EReal) : (⟨0, ![]⟩ : Shape).Idx → EReal := fun _ =>
  Ideal.div (Ideal.ofBits .f32 0x00000000#32 + ∑ p : (⟨2, ![16384, 1000]⟩ : Shape).Idx, term x0 x1 x2 (p 0) (p 1))
    (Ideal.ofBits .f32 0x46800000#32)

end Cert.Hinge

end
-- ==== Proof.RefValue.lean ====
/-
  The reference computes the loss: its operations, read one at a time at an index, are the masked hinge term at
  every (sample, class) pair — the row norms and the inner product as sums over the 128 features, the broadcasts
  reading row i or class j —, then the sum of all terms divided by 16384.
-/
import proofs.«168286_j90142773609061_2_alg».proof.Proof.Gen.ReferenceIdeal.Read
import proofs.«168286_j90142773609061_2_alg».proof.Proof.Hinge

noncomputable section

open scoped BigOperators

namespace Cert.ReferenceIdeal.RefValue

open Cert.ReferenceIdeal Cert.ReferenceIdeal.Gen Cert.ReferenceIdeal.Read Idealize.ShloMosaic Idealize.ShloMosaic.ValueIdx

/-- The target broadcast over the classes reads the sample's own target. -/
theorem idx_target (p : S16384x1000.Idx) : idx_main_v16 (idx_main_v19 p) = ix1 (p 0) :=
  funext fun a => Fin.ext (by match a with | ⟨0, _⟩ => rfl)

/-- The row norm broadcast over the classes sums row `p 0` of the features. -/
theorem idx_rownorm (p : S16384x1000.Idx) (k : Fin 128) : idx_main_v1 (idx_main_v5 (idx_main_v7 p)) k = ix2 (p 0) k :=
  funext fun a => Fin.ext (by match a with | ⟨0, _⟩ => rfl | ⟨1, _⟩ => rfl)

/-- The class norm broadcast over the samples sums row `p 1` of the class vectors. -/
theorem idx_clsnorm (p : S16384x1000.Idx) (k : Fin 128) : idx_main_v3 (idx_main_v6 (idx_main_v8 p)) k = ix2 (p 1) k :=
  funext fun a => Fin.ext (by match a with | ⟨0, _⟩ => rfl | ⟨1, _⟩ => rfl)

/-- The inner product's left factor is row `p 0` of the features, -/
theorem idx_left (p : S16384x1000.Idx) (k : Fin 128) : lidx_main_v4 p k = ix2 (p 0) k :=
  funext fun a => Fin.ext (by match a with | ⟨0, _⟩ => rfl | ⟨1, _⟩ => rfl)

/-- and its right factor row `p 1` of the class vectors. -/
theorem idx_right (p : S16384x1000.Idx) (k : Fin 128) : ridx_main_v4 p k = ix2 (p 1) k :=
  funext fun a => Fin.ext (by match a with | ⟨0, _⟩ => rfl | ⟨1, _⟩ => rfl)

/-- The masked array the reference sums is the masked hinge term, entry by entry. -/
theorem masked_apply (x0 : (⟨S16384x128, .f32⟩ : BufTy).Contents (Elt Ideal)) (x1 : (⟨S16384, .i32⟩ : BufTy).Contents (Elt Ideal))
    (x2 : (⟨S1000x128, .f32⟩ : BufTy).Contents (Elt Ideal)) (p : S16384x1000.Idx) :
    val_main_v22 (F := Ideal) x0 x1 x2 p = Cert.Hinge.term x0 x1 x2 (p 0) (p 1) := by
  rw [val_main_v22_apply, val_main_v21_apply, val_main_v19_apply, val_main_v16_apply, val_main_v20_apply,
    val_main_v18_apply, val_main_v17_apply, val_main_v15_apply, val_main_v14_apply, val_main_v13_apply,
    val_main_cst_2_apply, val_main_v12_apply, val_main_v9_apply, val_main_v7_apply, val_main_v5_apply,
    val_main_v1_apply, val_main_cst_apply, val_main_v8_apply, val_main_v6_apply, val_main_v3_apply,
    val_main_cst_0_apply, val_main_v11_apply, val_main_v10_apply, val_main_cst_1_apply, val_main_v4_apply,
    val_main_call0_v0_apply, val_main_call0_cst_apply, val_main_call1_v1_apply, val_main_call1_v0_apply,
    val_main_cst_3_apply]
  simp only [val_main_v0_apply, val_main_v2_apply, idx_target, idx_rownorm, idx_clsnorm, idx_left, idx_right]
  rfl

/-- The reference's result is the loss. -/
theorem result_eq (x0 : (⟨S16384x128, .f32⟩ : BufTy).Contents (Elt Ideal)) (x1 : (⟨S16384, .i32⟩ : BufTy).Contents (Elt Ideal))
    (x2 : (⟨S1000x128, .f32⟩ : BufTy).Contents (Elt Ideal)) :
    val_main_v24 (F := Ideal) x0 x1 x2 = Cert.Hinge.loss x0 x1 x2 := by
  funext i
  rw [val_main_v24_apply, val_main_v23_apply, val_main_cst_4_apply, val_main_cst_5_apply]
  simp only [masked_apply]
  rfl

end Cert.ReferenceIdeal.RefValue

end
-- ==== Proof.TileTerm.lean ====
/-
  One tile of the kernel, as a function of the four blocks its body loads: f, the tile's 1024 feature rows;
  c, all 1000 class vectors; c2, the class norms |c_j|² as a [1, 1000] row; tgt, the tile's 1024 targets as a
  [1, 1024] row.  For row r of the tile and class j the body's masked hinge is zero where tgt_r = j and
  max(1 − (|f_r|² + c2_j − 2·⟨f_r, c_j⟩), 0) elsewhere; the tile's value is the sum of all 1024·1000 of them,
  lanes outside and rows inside.
-/
import Idealize.ShloMosaic.PureOps.Ideal
import Idealize.ShloMosaic.Lib.ValueIdx

noncomputable section

open scoped BigOperators

namespace Cert.Tile

open Idealize.ShloMosaic Idealize.ShloMosaic.ValueIdx

/-- The body's masked hinge of the tile's row `r` against class `j`. -/
def term (f : (⟨2, ![1024, 128]⟩ : Shape).Idx → EReal) (c : (⟨2, ![1000, 128]⟩ : Shape).Idx → EReal)
    (c2 : (⟨2, ![1, 1000]⟩ : Shape).Idx → EReal) (tgt : (⟨2, ![1, 1024]⟩ : Shape).Idx → BitVec 32)
    (r : Fin 1024) (j : Fin 1000) : EReal :=
  Scalar.select (IntOp.cmpi .eq (tgt (ix2 (0 : Fin 1) r)) (BitVec.ofNat 32 j.val))
    (Ideal.ofBits .f32 0x00000000#32)
    (max (Ideal.ofBits .f32 0x3F800000#32
        - (((∑ k : Fin 128, f (ix2 r k) * f (ix2 r k)) + c2 (ix2 (0 : Fin 1) j))
          - Ideal.ofBits .f32 0x40000000#32 * ∑ k : Fin 128, f (ix2 r k) * c (ix2 j k)))
      (Ideal.ofBits .f32 0x00000000#32))

/-- The tile's value: every masked hinge of the tile summed. -/
def value (f : (⟨2, ![1024, 128]⟩ : Shape).Idx → EReal) (c : (⟨2, ![1000, 128]⟩ : Shape).Idx → EReal)
    (c2 : (⟨2, ![1, 1000]⟩ : Shape).Idx → EReal) (tgt : (⟨2, ![1, 1024]⟩ : Shape).Idx → BitVec 32) : EReal :=
  ∑ j : Fin 1000, ∑ r : Fin 1024, term f c c2 tgt r j

end Cert.Tile

end
-- ==== Proof.LibLeadAxis.lean ====
/-
  Reductions over the LEADING axis of an [m, n] vector, kept as a [1, n] row and broadcast back down the m
  rows (what `jnp.max(x, axis=0, keepdims=True)` and `jnp.sum(x, axis=0, keepdims=True)` become in a kernel
  body), read at an entry (k, j): the fold of `max` from the f32 pattern of −∞, and the plain sum, over the
  m entries of column j.  General in the extents m and n.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LeadAxis

open Idealize.ShloMosaic Idealize.ShloMosaic.ValueIdx

variable {m n : Nat}

/-- The index of the [m, n] vector that reduces to lane `j` with `k` put back on the leading axis is (k, j). -/
theorem lift_lead (h : (⟨2, ![m, n]⟩ : Shape).Reduces [0] ⟨1, ![n]⟩) (j : Fin n) (k : Fin m) :
    h.lift (ix1 j) k = ix2 k j :=
  funext fun a => Fin.ext (by match a with | ⟨0, _⟩ => rfl | ⟨1, _⟩ => rfl)

/-- A maximum over the leading axis, at lane `j`: the fold of `max` from −∞'s pattern down column `j`. -/
theorem max_lead_apply (src : FVec Ideal ⟨2, ![m, n]⟩ .f32) (h : (⟨2, ![m, n]⟩ : Shape).Reduces [0] ⟨1, ![n]⟩)
    (hφ : FKind.Formats .f32) (hacc : (0xFF800000#32 : BitVec 32) = 0xFF800000#32) (j : Fin n) :
    multiReduction .maximumf [0] ⟨1, ![n]⟩ src 0xFF800000#32 h hφ hacc (ix1 j)
      = (Finset.univ : Finset (Fin m)).fold max (Ideal.ofBits .f32 0xFF800000#32) (fun k => src (ix2 k j)) := by
  refine (Ideal.multiReduction_maximumf_single src 0xFF800000#32 h hφ hacc (ix1 j)).trans ?_
  exact congrArg (fun f : Fin m → EReal => (Finset.univ : Finset (Fin m)).fold max (Ideal.ofBits .f32 0xFF800000#32) f)
    (funext fun k => congrArg src (lift_lead h j k))

/-- A sum over the leading axis, at lane `j`: the sum down column `j`. -/
theorem sum_lead_apply (src : FVec Ideal ⟨2, ![m, n]⟩ .f32) (h : (⟨2, ![m, n]⟩ : Shape).Reduces [0] ⟨1, ![n]⟩)
    (hφ : FKind.Formats .f32) (hacc : (0x00000000#32 : BitVec 32) = 0x00000000#32) (j : Fin n) :
    multiReduction .add [0] ⟨1, ![n]⟩ src 0x00000000#32 h hφ hacc (ix1 j) = ∑ k : Fin m, src (ix2 k j) := by
  refine (Ideal.multiReduction_add_single src 0x00000000#32 h hφ hacc (ix1 j)).trans ?_
  exact Finset.sum_congr rfl fun k _ => congrArg src (lift_lead h j k)

/-- A lane vector kept as a one-row matrix and broadcast down `m` rows reads, at (k, j), lane `j`. -/
theorem keepdims_apply {α : Type} (v : (⟨1, ![n]⟩ : Shape).Idx → α) (hc : (⟨1, ![n]⟩ : Shape).ShapeCasts ⟨2, ![1, n]⟩)
    (hb : (⟨2, ![1, n]⟩ : Shape).Broadcasts ⟨2, ![m, n]⟩) (k : Fin m) (j : Fin n) :
    broadcastTo ⟨2, ![m, n]⟩ (shapeCast ⟨2, ![1, n]⟩ v hc) hb (ix2 k j) = v (ix1 j) :=
  (broadcastTo_1b_ab_apply _ hb k j).trans (shapeCast_a_1a_apply v hc 0 j)

/-- A lane vector kept as a one-row matrix reads, at (0, j), lane `j`. -/
theorem keeprow_apply {α : Type} (v : (⟨1, ![n]⟩ : Shape).Idx → α) (hc : (⟨1, ![n]⟩ : Shape).ShapeCasts ⟨2, ![1, n]⟩)
    (u : Fin 1) (j : Fin n) : shapeCast ⟨2, ![1, n]⟩ v hc (ix2 u j) = v (ix1 j) :=
  shapeCast_a_1a_apply v hc u j

end Cert.LeadAxis

end
-- ==== Proof.LibTrailAxis.lean ====
/-
  Reductions over the TRAILING axis of an [m, n] vector, kept as an [m, 1] column and broadcast back along
  the n lanes (what `jnp.sum(x, axis=1, keepdims=True)` becomes in a kernel body), read at an entry (i, j):
  the plain sum over the n entries of row i.  Also a value broadcast from a [1, 1, 1] cell to a [1, a, b]
  block, and a sum over a rank-3 index set as the triple sum over its coordinates.  General in the extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.TrailAxis

open Idealize.ShloMosaic Idealize.ShloMosaic.ValueIdx

variable {m n : Nat}

/-- The index of the [m, n] vector that reduces to row `i` with `k` put back on the trailing axis is (i, k). -/
theorem lift_trail (h : (⟨2, ![m, n]⟩ : Shape).Reduces [1] ⟨1, ![m]⟩) (i : Fin m) (k : Fin n) :
    h.lift (ix1 i) k = ix2 i k :=
  funext fun a => Fin.ext (by match a with | ⟨0, _⟩ => rfl | ⟨1, _⟩ => rfl)

/-- A sum over the trailing axis, at row `i`: the sum along row `i`. -/
theorem sum_trail_apply (src : FVec Ideal ⟨2, ![m, n]⟩ .f32) (h : (⟨2, ![m, n]⟩ : Shape).Reduces [1] ⟨1, ![m]⟩)
    (hφ : FKind.Formats .f32) (hacc : (0x00000000#32 : BitVec 32) = 0x00000000#32) (i : Fin m) :
    multiReduction .add [1] ⟨1, ![m]⟩ src 0x00000000#32 h hφ hacc (ix1 i) = ∑ k : Fin n, src (ix2 i k) := by
  refine (Ideal.multiReduction_add_single src 0x00000000#32 h hφ hacc (ix1 i)).trans ?_
  exact Finset.sum_congr rfl fun k _ => congrArg src (lift_trail h i k)

/-- A vector kept as a one-column matrix reads, at (i, 0), entry `i`. -/
theorem keepcol_apply {α : Type} (v : (⟨1, ![m]⟩ : Shape).Idx → α) (hc : (⟨1, ![m]⟩ : Shape).ShapeCasts ⟨2, ![m, 1]⟩)
    (i : Fin m) (u : Fin 1) : shapeCast ⟨2, ![m, 1]⟩ v hc (ix2 i u) = v (ix1 i) :=
  shapeCast_apply v hc _ _ (by
    have hu : u.val = 0 := by omega
    rw [Shape.rowMajor_val_two, Shape.rowMajor_val_one]
    show i.val = i.val * 1 + u.val
    omega)

/-- One column broadcast along `n` lanes reads, at (i, j), the column's entry `i`. -/
theorem broadcastTo_a1_ab_apply {α : Type} (v : (⟨2, ![m, 1]⟩ : Shape).Idx → α)
    (h : (⟨2, ![m, 1]⟩ : Shape).Broadcasts ⟨2, ![m, n]⟩) (i : Fin m) (j : Fin n) :
    broadcastTo ⟨2, ![m, n]⟩ v h (ix2 i j) = v (ix2 i (0 : Fin 1)) := by
  refine broadcastTo_apply v h (ix2 i j) (ix2 i (0 : Fin 1)) fun ax => ?_
  match ax with
  | ⟨0, _⟩ =>
    show i.val = if m = 1 then 0 else i.val
    split
    · have := i.isLt; omega
    · rfl
  | ⟨1, _⟩ => rfl

/-- A vector kept as a column and broadcast along `n` lanes reads, at (i, j), entry `i`. -/
theorem keepdims_col_apply {α : Type} (v : (⟨1, ![m]⟩ : Shape).Idx → α) (hc : (⟨1, ![m]⟩ : Shape).ShapeCasts ⟨2, ![m, 1]⟩)
    (hb : (⟨2, ![m, 1]⟩ : Shape).Broadcasts ⟨2, ![m, n]⟩) (i : Fin m) (j : Fin n) :
    broadcastTo ⟨2, ![m, n]⟩ (shapeCast ⟨2, ![m, 1]⟩ v hc) hb (ix2 i j) = v (ix1 i) :=
  (broadcastTo_a1_ab_apply _ hb i j).trans (keepcol_apply v hc i 0)

/-- One cell broadcast to a [1, a, b] block reads the cell everywhere. -/
theorem broadcastTo_111_1ab_apply {α : Type} {a b : Nat} (v : (⟨3, ![1, 1, 1]⟩ : Shape).Idx → α)
    (h : (⟨3, ![1, 1, 1]⟩ : Shape).Broadcasts ⟨3, ![1, a, b]⟩) (q : (⟨3, ![1, a, b]⟩ : Shape).Idx) :
    broadcastTo ⟨3, ![1, a, b]⟩ v h q = v (ix3 (0 : Fin 1) (0 : Fin 1) (0 : Fin 1)) :=
  broadcastTo_apply v h q _ fun ax => match ax with
    | ⟨0, _⟩ => rfl
    | ⟨1, _⟩ => rfl
    | ⟨2, _⟩ => rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.TrailAxis

end
-- ==== Proof.TilePayload.lean ====
/-
  The body's one stored value, read at any cell of the [1, 8, 128] output block, is the tile's value: the
  broadcast of the [1, 1, 1] cell that holds the lane sum of the row of column sums of the masked hinge array.
  The masked hinge array is read entry by entry: the row norm is a lane sum kept as a column, the class norms a
  loaded row, the cross term a matrix product of the features with the transposed class vectors (the change of
  float format is the identity on the extended reals), the mask a comparison of the transposed target row with
  the lane number.
-/
import proofs.«168286_j90142773609061_2_alg».proof.Proof.Gen.KernelIdeal.Skeleton
import proofs.«168286_j90142773609061_2_alg».proof.Proof.TileTerm
import proofs.«168286_j90142773609061_2_alg».proof.Proof.LibLeadAxis
import proofs.«168286_j90142773609061_2_alg».proof.Proof.LibTrailAxis
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.TileValue

open Cert.KernelIdeal Cert.KernelIdeal.Gen Idealize.ShloMosaic Idealize.ShloMosaic.ValueIdx

/-! ## The cross term -/

/-- The body's matrix product of the features (as bf16) with the transposed class vectors (as bf16), from zero. -/
def cross (v0 : Vec Ideal S1024x128 .f32) (v1 : Vec Ideal S1000x128 .f32) : FVec Ideal S1024x1000 .f32 :=
  matmul dot_S1024x128_S128x1000_S1024x1000_1_0_0_1_n_n none (truncf .bf16 v0 bitsLt_bf16_f32)
    (transpose S128x1000 [1, 0] (truncf .bf16 v1 bitsLt_bf16_f32) transposes_S1000x128_p1_0_S128x1000)
    (constant S1024x1000 .f32 0x00000000#32)

theorem lhs_cross_0 (i : S1024x1000.Idx) (q : dot_S1024x128_S128x1000_S1024x1000_1_0_0_1_n_n.contr.Idx) :
    (dot_S1024x128_S128x1000_S1024x1000_1_0_0_1_n_n.lhsIdx i q 0).val = (i 0).val := by
  unfold DotDims.lhsIdx
  rw [dif_neg (show ¬(0 : Fin S1024x128.rank) ∈ dot_S1024x128_S128x1000_S1024x1000_1_0_0_1_n_n.lhsBatch by decide), dif_pos (show (0 : Fin S1024x128.rank) ∈ dot_S1024x128_S128x1000_S1024x1000_1_0_0_1_n_n.lhsNonContracting by decide)]
  rfl
theorem lhs_cross_1 (i : S1024x1000.Idx) (q : dot_S1024x128_S128x1000_S1024x1000_1_0_0_1_n_n.contr.Idx) :
    (dot_S1024x128_S128x1000_S1024x1000_1_0_0_1_n_n.lhsIdx i q 1).val = (q ⟨0, by decide⟩).val :=
  dot_S1024x128_S128x1000_S1024x1000_1_0_0_1_n_n.lhsIdx_val_of_single rfl i q
theorem rhs_cross_0 (i : S1024x1000.Idx) (q : dot_S1024x128_S128x1000_S1024x1000_1_0_0_1_n_n.contr.Idx) :
    (dot_S1024x128_S128x1000_S1024x1000_1_0_0_1_n_n.rhsIdx i q 0).val = (q ⟨0, by decide⟩).val :=
  dot_S1024x128_S128x1000_S1024x1000_1_0_0_1_n_n.rhsIdx_val_of_single rfl i q
theorem rhs_cross_1 (i : S1024x1000.Idx) (q : dot_S1024x128_S128x1000_S1024x1000_1_0_0_1_n_n.contr.Idx) :
    (dot_S1024x128_S128x1000_S1024x1000_1_0_0_1_n_n.rhsIdx i q 1).val = (i 1).val := by
  unfold DotDims.rhsIdx
  rw [dif_neg (show ¬(1 : Fin S128x1000.rank) ∈ dot_S1024x128_S128x1000_S1024x1000_1_0_0_1_n_n.rhsBatch by decide), dif_pos (show (1 : Fin S128x1000.rank) ∈ dot_S1024x128_S128x1000_S1024x1000_1_0_0_1_n_n.rhsNonContracting by decide)]
  rfl

/-- The cross term at (r, j) is the inner product of feature row `r` with class vector `j`. -/
theorem cross_apply (v0 : Vec Ideal S1024x128 .f32) (v1 : Vec Ideal S1000x128 .f32) (r : Fin 1024) (j : Fin 1000) :
    cross v0 v1 (ix2 r j) = ∑ k : Fin 128, v0 (ix2 r k) * v1 (ix2 j k) := by
  unfold cross
  simp only [matmul]
  rw [Ideal.matmul_constant_zero_apply, ← Equiv.sum_comp (ValueIdx.contrEquiv1 dot_S1024x128_S128x1000_S1024x1000_1_0_0_1_n_n 128 rfl rfl).symm]
  refine Finset.sum_congr rfl fun k _ => ?_
  have hk := ValueIdx.contrEquiv1_symm_val dot_S1024x128_S128x1000_S1024x1000_1_0_0_1_n_n 128 rfl rfl k
  have el : dot_S1024x128_S128x1000_S1024x1000_1_0_0_1_n_n.lhsIdx (ix2 r j) ((ValueIdx.contrEquiv1 dot_S1024x128_S128x1000_S1024x1000_1_0_0_1_n_n 128 rfl rfl).symm k) = ix2 r k := funext fun a => Fin.ext (by
    match a with
    | ⟨0, _⟩ => exact lhs_cross_0 _ _
    | ⟨1, _⟩ => exact (lhs_cross_1 _ _).trans hk)
  have er : dot_S1024x128_S128x1000_S1024x1000_1_0_0_1_n_n.rhsIdx (ix2 r j) ((ValueIdx.contrEquiv1 dot_S1024x128_S128x1000_S1024x1000_1_0_0_1_n_n 128 rfl rfl).symm k) = ix2 k j := funext fun a => Fin.ext (by
    match a with
    | ⟨0, _⟩ => exact (rhs_cross_0 _ _).trans hk
    | ⟨1, _⟩ => exact rhs_cross_1 _ _)
  rw [el, er, transpose_ix2_apply]
  rfl

/-! ## The squared distance and the masked hinge -/

/-- The body's squared-distance array. -/
def dist (v0 : Vec Ideal S1024x128 .f32) (v1 : Vec Ideal S1000x128 .f32) (v2 : Vec Ideal S1x1000 .f32) : FVec Ideal S1024x1000 .f32 :=
  subf (addf (broadcastTo S1024x1000 (shapeCast S1024x1 (multiReduction .add [1] S1024 (mulf v0 v0) 0x00000000#32 reduces_S1024x128_S1024 (.inl rfl) rfl) shapeCasts_S1024_S1024x1) broadcasts_S1024x1_S1024x1000)
      (broadcastTo S1024x1000 (shapeCast S1x1000 v2 shapeCasts_S1x1000_S1x1000) broadcasts_S1x1000_S1024x1000))
    (mulf (broadcast S1024x1000 (Scalar.ofBits .f32 0x40000000#32)) (cross v0 v1))

/-- The squared distance at (r, j): the row's norm plus the class norm less twice the inner product. -/
theorem dist_apply (v0 : Vec Ideal S1024x128 .f32) (v1 : Vec Ideal S1000x128 .f32) (v2 : Vec Ideal S1x1000 .f32) (r : Fin 1024) (j : Fin 1000) :
    dist v0 v1 v2 (ix2 r j) = ((∑ k : Fin 128, v0 (ix2 r k) * v0 (ix2 r k)) + v2 (ix2 (0 : Fin 1) j))
      - Ideal.ofBits .f32 0x40000000#32 * ∑ k : Fin 128, v0 (ix2 r k) * v1 (ix2 j k) := by
  unfold dist
  rw [subf_apply, addf_apply, mulf_apply, broadcast_apply, cross_apply, Cert.TrailAxis.keepdims_col_apply,
    Cert.TrailAxis.sum_trail_apply, broadcastTo_1b_ab_apply, shapeCast_self]
  rfl

/-- The body's masked hinge array. -/
def masked (v0 : Vec Ideal S1024x128 .f32) (v1 : Vec Ideal S1000x128 .f32) (v2 : Vec Ideal S1x1000 .f32) (v17 : Vec Ideal S1x1024 .i32) : FVec Ideal S1024x1000 .f32 :=
  select (cmpi .eq (broadcastTo S1024x1000 (transpose S1024x1 [1, 0] (shapeCast S1x1024 v17 shapeCasts_S1x1024_S1x1024) transposes_S1x1024_p1_0_S1024x1) broadcasts_S1024x1_S1024x1000) (iota .tc S1024x1000 32 [1] iota_S1024x1000_d1_w32))
    (broadcast S1024x1000 (Scalar.ofBits .f32 0x00000000#32))
    (maximumf (subf (broadcast S1024x1000 (Scalar.ofBits .f32 0x3F800000#32)) (dist v0 v1 v2)) (broadcast S1024x1000 (Scalar.ofBits .f32 0x00000000#32)))

/-- The masked hinge array at (r, j) is the tile's term. -/
theorem masked_apply (v0 : Vec Ideal S1024x128 .f32) (v1 : Vec Ideal S1000x128 .f32) (v2 : Vec Ideal S1x1000 .f32) (v17 : Vec Ideal S1x1024 .i32)
    (r : Fin 1024) (j : Fin 1000) : masked v0 v1 v2 v17 (ix2 r j) = Cert.Tile.term v0 v1 v2 v17 r j := by
  unfold masked Cert.Tile.term
  rw [select_apply, maximumf_apply, subf_apply, broadcast_apply, broadcast_apply, dist_apply]
  show Scalar.select (IntOp.cmpi .eq (broadcastTo S1024x1000 (transpose S1024x1 [1, 0] (shapeCast S1x1024 v17 shapeCasts_S1x1024_S1x1024) transposes_S1x1024_p1_0_S1024x1) broadcasts_S1024x1_S1024x1000 (ix2 r j)) (iota .tc S1024x1000 32 [1] iota_S1024x1000_d1_w32 (ix2 r j))) _ _ = _
  rw [Cert.TrailAxis.broadcastTo_a1_ab_apply, transpose_ix2_apply, shapeCast_self, iota_single_apply]
  rfl

/-! ## The stored value -/

/-- The body's payload is the broadcast of the one cell holding the lane sum of the column sums of the masked hinge array. -/
theorem pay_eq (v0 : Vec Ideal S1024x128 .f32) (v1 : Vec Ideal S1000x128 .f32) (v2 : Vec Ideal S1x1000 .f32) (v17 : Vec Ideal S1x1024 .i32) :
    k0_pay1 (F := Ideal) v0 v1 v2 v17
      = broadcastTo S1x8x128 (shapeCast S1x1x1 (shapeCast S1x1 (multiReduction .add [1] S1
          (shapeCast S1x1000 (multiReduction .add [0] S1000 (masked v0 v1 v2 v17) 0x00000000#32 reduces_S1024x1000_S1000 (.inl rfl) rfl) shapeCasts_S1000_S1x1000)
          0x00000000#32 reduces_S1x1000_S1 (.inl rfl) rfl) shapeCasts_S1_S1x1) shapeCasts_S1x1_S1x1x1) broadcasts_S1x1x1_S1x8x128 := rfl

/-- Every cell of the stored block holds the tile's value. -/
theorem pay_apply (v0 : Vec Ideal S1024x128 .f32) (v1 : Vec Ideal S1000x128 .f32) (v2 : Vec Ideal S1x1000 .f32) (v17 : Vec Ideal S1x1024 .i32)
    (q : S1x8x128.Idx) : k0_pay1 (F := Ideal) v0 v1 v2 v17 q = Cert.Tile.value v0 v1 v2 v17 := by
  rw [pay_eq, Cert.TrailAxis.broadcastTo_111_1ab_apply, shapeCast_ab_1ab_apply, shapeCast_a_1a_apply,
    Cert.TrailAxis.sum_trail_apply]
  unfold Cert.Tile.value
  refine Finset.sum_congr rfl fun j _ => ?_
  rw [Cert.LeadAxis.keeprow_apply, Cert.LeadAxis.sum_lead_apply]
  exact Finset.sum_congr rfl fun r _ => masked_apply v0 v1 v2 v17 r j

end Cert.KernelIdeal.TileValue

end
-- ==== Proof.TileLaw.lean ====
/-
  A tile's terms are the loss's terms.  If the tile's feature block is rows row(r) of the features, its class block
  all the class vectors, its class-norm row the norms 0 + Σ_k c_jk², and its target row the targets of rows row(r),
  then the body's masked hinge of (r, j) is the loss's term of (row(r), j): "zero where target = j, else the hinge"
  is "the hinge where target ≠ j, else zero", and 0 + x = x.
-/
import proofs.«168286_j90142773609061_2_alg».proof.Proof.Hinge
import proofs.«168286_j90142773609061_2_alg».proof.Proof.TileTerm
import Idealize.ShloMosaic.PureOps.Ideal.Laws

noncomputable section

open scoped BigOperators

namespace Cert.TileLaw

open Idealize.ShloMosaic Idealize.ShloMosaic.ValueIdx

/-- Selecting `z` where two words are equal and `v` elsewhere is selecting `v` where they differ and `z` elsewhere. -/
theorem select_eq_ne {α : Type} {w : Nat} (a b : BitVec w) (z v : α) :
    Scalar.select (IntOp.cmpi .eq a b) z v = Scalar.select (IntOp.cmpi .ne a b) v z := by
  unfold Scalar.select IntOp.cmpi
  by_cases h : a = b
  · have h1 : (a == b) = true := by simp [h]
    have h2 : (a != b) = false := by simp [h]
    rw [h1, h2]; rfl
  · have h1 : (a == b) = false := by simp [h]
    have h2 : (a != b) = true := by simp [h]
    rw [h1, h2]; rfl

/-- One term. -/
theorem term_eq (a0 : (⟨2, ![16384, 128]⟩ : Shape).Idx → EReal) (a1 : (⟨1, ![16384]⟩ : Shape).Idx → BitVec 32)
    (a2 : (⟨2, ![1000, 128]⟩ : Shape).Idx → EReal)
    (f : (⟨2, ![1024, 128]⟩ : Shape).Idx → EReal) (c : (⟨2, ![1000, 128]⟩ : Shape).Idx → EReal)
    (c2 : (⟨2, ![1, 1000]⟩ : Shape).Idx → EReal) (tgt : (⟨2, ![1, 1024]⟩ : Shape).Idx → BitVec 32)
    (i : Fin 16384) (r : Fin 1024) (j : Fin 1000)
    (hf : ∀ k : Fin 128, f (ix2 r k) = a0 (ix2 i k)) (hc : ∀ k : Fin 128, c (ix2 j k) = a2 (ix2 j k))
    (hc2 : c2 (ix2 (0 : Fin 1) j) = Ideal.ofBits .f32 0x00000000#32 + ∑ k : Fin 128, a2 (ix2 j k) * a2 (ix2 j k))
    (ht : tgt (ix2 (0 : Fin 1) r) = a1 (ix1 i)) :
    Cert.Tile.term f c c2 tgt r j = Cert.Hinge.term a0 a1 a2 i j := by
  unfold Cert.Tile.term Cert.Hinge.term
  rw [select_eq_ne, ht, hc2]
  simp only [hf, hc]
  rw [Ideal.ofBits_zero_f32]
  simp only [zero_add]

/-- All the terms of a tile. -/
theorem value_eq (a0 : (⟨2, ![16384, 128]⟩ : Shape).Idx → EReal) (a1 : (⟨1, ![16384]⟩ : Shape).Idx → BitVec 32)
    (a2 : (⟨2, ![1000, 128]⟩ : Shape).Idx → EReal)
    (f : (⟨2, ![1024, 128]⟩ : Shape).Idx → EReal) (c : (⟨2, ![1000, 128]⟩ : Shape).Idx → EReal)
    (c2 : (⟨2, ![1, 1000]⟩ : Shape).Idx → EReal) (tgt : (⟨2, ![1, 1024]⟩ : Shape).Idx → BitVec 32)
    (row : Fin 1024 → Fin 16384)
    (hf : ∀ (r : Fin 1024) (k : Fin 128), f (ix2 r k) = a0 (ix2 (row r) k))
    (hc : ∀ (j : Fin 1000) (k : Fin 128), c (ix2 j k) = a2 (ix2 j k))
    (hc2 : ∀ j : Fin 1000, c2 (ix2 (0 : Fin 1) j) = Ideal.ofBits .f32 0x00000000#32 + ∑ k : Fin 128, a2 (ix2 j k) * a2 (ix2 j k))
    (ht : ∀ r : Fin 1024, tgt (ix2 (0 : Fin 1) r) = a1 (ix1 (row r))) :
    Cert.Tile.value f c c2 tgt = ∑ j : Fin 1000, ∑ r : Fin 1024, Cert.Hinge.term a0 a1 a2 (row r) j := by
  unfold Cert.Tile.value
  exact Finset.sum_congr rfl fun j _ => Finset.sum_congr rfl fun r _ =>
    term_eq a0 a1 a2 f c c2 tgt (row r) r j (hf r) (hc j) (hc2 j) (ht r)

end Cert.TileLaw

end
-- ==== Proof.LibBlockSum.lean ====
/-
  A sum over `Fin (B * R)` read block by block: the index `i` is `b * R + r` for exactly one block `b : Fin B`
  and one offset `r : Fin R`, so summing the blocks' sums is summing everything.  Stated in any commutative
  additive monoid (the extended reals are one: no finiteness is needed to regroup a sum).
-/
import Mathlib.Algebra.BigOperators.Fin
import Mathlib.Logic.Equiv.Fin.Basic

namespace Cert.Lib

/-- `∑ b, ∑ r, g (b * R + r) = ∑ i, g i` over `Fin (B * R)`, the index built by `finProdFinEquiv`
    (whose value is `r + R * b`). -/
theorem sum_blocks {M : Type*} [AddCommMonoid M] (B R : ℕ) (g : Fin (B * R) → M) :
    ∑ b : Fin B, ∑ r : Fin R, g (finProdFinEquiv (b, r)) = ∑ i : Fin (B * R), g i := by
  rw [← Fintype.sum_prod_type' (f := fun b r => g (finProdFinEquiv (b, r)))]
  exact Equiv.sum_comp finProdFinEquiv g

/-- The same with the block's entry named by its value: any `idx b r` whose value is `b * R + r`. -/
theorem sum_blocks_val {M : Type*} [AddCommMonoid M] (B R : ℕ) (g : Fin (B * R) → M)
    (idx : Fin B → Fin R → Fin (B * R)) (hidx : ∀ b r, (idx b r).val = b.val * R + r.val) :
    ∑ b : Fin B, ∑ r : Fin R, g (idx b r) = ∑ i : Fin (B * R), g i := by
  rw [← sum_blocks B R g]
  refine Finset.sum_congr rfl fun b _ => Finset.sum_congr rfl fun r _ => congrArg g (Fin.ext ?_)
  rw [hidx]; simp [finProdFinEquiv, Nat.mul_comm, Nat.add_comm]

/-- The same over `Fin N` with `N = B * R` given as an equation (so that `N` may be a literal). -/
theorem sum_blocks_of_eq {M : Type*} [AddCommMonoid M] {B R N : ℕ} (hN : B * R = N) (g : Fin N → M)
    (idx : Fin B → Fin R → Fin N) (hidx : ∀ b r, (idx b r).val = b.val * R + r.val) :
    ∑ b : Fin B, ∑ r : Fin R, g (idx b r) = ∑ i : Fin N, g i := by
  subst hN
  exact sum_blocks_val B R g idx hidx

end Cert.Lib
-- ==== Proof.MeanLaw.lean ====
/-
  The one law that joins the two programs.  The kernel writes each tile's partial sum T t into all 8·128 cells of
  the tile's output block, sums every cell of the 16 blocks and divides by 8·128·16384 = 2^24; the reference sums
  all 16384·1000 hinge terms and divides by 16384 = 2^14.  On the extended reals a sum of n copies of x is n·x
  (for x = ±∞ too), multiplication is associative and commutative, and 1024 · 2^-24 = 2^-14, so the two
  quotients agree whatever the partial sums are: no finiteness is needed.  The partial sums themselves add up
  to the whole sum because a finite sum in a commutative monoid may be regrouped: rows 1024·t + r, tile by tile.
-/
import Mathlib.Data.EReal.Operations
import Idealize.ShloMosaic.PureOps.Ideal.Laws
import Idealize.ShloMosaic.Lib.ValueIdx
import proofs.«168286_j90142773609061_2_alg».proof.Proof.LibBlockSum
import proofs.«168286_j90142773609061_2_alg».proof.Proof.LibTrailAxis

noncomputable section

open scoped BigOperators

namespace Cert.MeanLaw

open Idealize.ShloMosaic Idealize.ShloMosaic.ValueIdx

/-- The f32 pattern 0x4B800000 is 2^24 = 8·128·16384. -/
theorem ofBits_two24 : Ideal.ofBits .f32 0x4B800000#32 = ((16777216 : ℝ) : EReal) := by
  simp [Ideal.ofBits, Ideal.ieee, -EReal.coe_mul]; norm_num

/-- The f32 pattern 0x46800000 is 2^14 = 16384. -/
theorem ofBits_two14 : Ideal.ofBits .f32 0x46800000#32 = ((16384 : ℝ) : EReal) := by
  simp [Ideal.ofBits, Ideal.ieee, -EReal.coe_mul]; norm_num

/-- 1024 copies of `S`, divided by 2^24, is `S` divided by 2^14 — for every extended real `S`. -/
theorem div_of_copies (S : EReal) :
    Ideal.div ((1024 : ℕ) • S) (Ideal.ofBits .f32 0x4B800000#32) = Ideal.div S (Ideal.ofBits .f32 0x46800000#32) := by
  rw [ofBits_two24, ofBits_two14, Ideal.div_coe (by norm_num), Ideal.div_coe (by norm_num), EReal.nsmul_eq_mul,
    mul_comm ((1024 : ℕ) : EReal) S, mul_assoc]
  congr 1
  rw [show (((1024 : ℕ) : EReal)) = ((1024 : ℝ) : EReal) by norm_cast, ← EReal.coe_mul]
  congr 1
  norm_num

/-- The sum over the 16·8·128 cells of blocks that each hold their tile's value everywhere, from zero and divided
    by 2^24, is the sum of the 16 tile values, from zero and divided by 2^14. -/
theorem mean_of_blocks (T : Fin 16 → EReal) :
    Ideal.div (Ideal.ofBits .f32 0x00000000#32 + ∑ q : (⟨3, ![16, 8, 128]⟩ : Shape).Idx, T (q 0))
        (Ideal.ofBits .f32 0x4B800000#32)
      = Ideal.div (Ideal.ofBits .f32 0x00000000#32 + ∑ t : Fin 16, T t) (Ideal.ofBits .f32 0x46800000#32) := by
  rw [Ideal.ofBits_zero_f32, zero_add, zero_add, Cert.TrailAxis.sum_idx3, ← div_of_copies]
  congr 1
  rw [Finset.smul_sum]
  refine Finset.sum_congr rfl fun t _ => ?_
  show ∑ _b : Fin 8, ∑ _c : Fin 128, T t = (1024 : ℕ) • T t
  simp only [Finset.sum_const, Finset.card_univ, Fintype.card_fin, smul_smul]
  norm_num

/-- Sixteen tiles of 1024 rows: summing each tile's terms (lanes outside, rows inside, as the kernel does) and
    then the tiles is summing every term of the [16384, 1000] array. -/
theorem sum_tiles (H : Fin 16384 → Fin 1000 → EReal) (row : Fin 16 → Fin 1024 → Fin 16384)
    (hrow : ∀ t r, (row t r).val = t.val * 1024 + r.val) :
    ∑ t : Fin 16, ∑ j : Fin 1000, ∑ r : Fin 1024, H (row t r) j
      = ∑ p : (⟨2, ![16384, 1000]⟩ : Shape).Idx, H (p 0) (p 1) := by
  rw [sum_idx2]
  show _ = ∑ a : Fin 16384, ∑ b : Fin 1000, H a b
  rw [← Cert.Lib.sum_blocks_of_eq (B := 16) (R := 1024) (by norm_num) (fun i => ∑ b : Fin 1000, H i b) row hrow]
  exact Finset.sum_congr rfl fun t _ => Finset.sum_comm

end Cert.MeanLaw

end
-- ==== Proof.KernelValue.lean ====
/-
  The kernel's result.  The region is entered with two arrays the host made: the targets re-laid as a [1, 16384]
  row, and the class norms 0 + Σ_k c_jk² re-laid as a [1, 1000] row.  At grid point t the body finds feature rows
  1024·t + r, every class vector, the norm row, and targets 1024·t + r, so what it writes back — its tile's value in
  all 8·128 cells of block t — is the sum of the loss's terms of those 1024 rows.  The sixteen blocks tile the
  [16, 8, 128] array, so after the region it holds, at (t, a, b), the partial sum of tile t; the host then sums
  every cell and divides by 2^24, which is the loss.
-/
import proofs.«168286_j90142773609061_2_alg».proof.Proof.Gen.KernelIdeal.Frame
import proofs.«168286_j90142773609061_2_alg».proof.Proof.TilePayload
import proofs.«168286_j90142773609061_2_alg».proof.Proof.TileLaw
import proofs.«168286_j90142773609061_2_alg».proof.Proof.MeanLaw
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The three argument arrays as launched on core `c`: the features, the targets, the class vectors. -/
abbrev feats (c : Dev nD) : S16384x128.Idx → EReal := m ((c.tc : Thread nD τ).loc main_arg0)
abbrev targets (c : Dev nD) : S16384.Idx → BitVec 32 := m ((c.tc : Thread nD τ).loc main_arg1)
abbrev classes (c : Dev nD) : S1000x128.Idx → EReal := m ((c.tc : Thread nD τ).loc main_arg2)

/-! ## The partial sums -/

/-- Row `r` of tile `t` is sample row 1024·t + r. -/
def rowOf (t : Fin 16) (r : Fin 1024) : Fin 16384 := ⟨t.val * 1024 + r.val, by omega⟩

/-- Tile `t`'s partial sum: the loss's terms of its 1024 rows against every class. -/
def tileSum (a0 : S16384x128.Idx → EReal) (a1 : S16384.Idx → BitVec 32) (a2 : S1000x128.Idx → EReal) (t : Fin 16) : EReal :=
  ∑ j : Fin 1000, ∑ r : Fin 1024, Cert.Hinge.term a0 a1 a2 (rowOf t r) j

/-- The [16, 8, 128] array whose block `t` holds tile `t`'s partial sum in every cell. -/
def blocks (a0 : S16384x128.Idx → EReal) (a1 : S16384.Idx → BitVec 32) (a2 : S1000x128.Idx → EReal) : S16x8x128.Idx → EReal :=
  fun q => tileSum a0 a1 a2 (q 0)

/-! ## The arrays the host makes before the region -/

/-- The targets, re-laid as a row. -/
theorem entry_targets (c : Dev nD) :
    (V m c main_v0 : S1x16384.Idx → BitVec 32) = fun i => shapeCast S1x16384 (targets m c) shapeCasts_S16384_S1x16384 i := by
  show StableHlo.after hostOps0 (fun b => m (c, b)) (Proc.devRef .tc main_v0) = _
  after_results; rfl

/-- The target row at lane `i` is target `i`. -/
theorem entry_targets_apply (c : Dev nD) (i : Fin 16384) :
    (V m c main_v0 : S1x16384.Idx → BitVec 32) (ix2 (0 : Fin 1) i) = targets m c (ix1 i) := by
  rw [entry_targets]
  exact shapeCast_a_1a_apply _ _ 0 i

/-- The class norms: the host's row sums of squares, kept as a column and re-laid as a row. -/
theorem entry_clsnorm (c : Dev nD) :
    (V m c main_v4 : S1x1000.Idx → EReal) = fun i => shapeCast S1x1000 (broadcastInDim S1000x1 ![0] bcast_S1000_S1000x1_0
      (Host.reduceAdd (mulf (classes m c) (classes m c)) (constant (F := Ideal) S_ .f32 0x00000000#32)
        reducesTo_S1000x128_S1000_d1 h_S_)) shapeCasts_S1000x1_S1x1000 i := by
  show StableHlo.after hostOps0 (fun b => m (c, b)) (Proc.devRef .tc main_v4) = _
  after_results; rfl

/-- The norm row at lane `j` is zero plus the sum of squares of class vector `j`. -/
theorem entry_clsnorm_apply (c : Dev nD) (j : Fin 1000) :
    (V m c main_v4 : S1x1000.Idx → EReal) (ix2 (0 : Fin 1) j)
      = Ideal.ofBits .f32 0x00000000#32 + ∑ k : Fin 128, classes m c (ix2 j k) * classes m c (ix2 j k) := by
  rw [entry_clsnorm]
  show shapeCast S1x1000 _ shapeCasts_S1000x1_S1x1000 (ix2 (0 : Fin 1) j) = _
  refine (shapeCast_apply _ shapeCasts_S1000x1_S1x1000 (ix2 (0 : Fin 1) j) (ix2 j (0 : Fin 1)) (by
      rw [Shape.rowMajor_val_two, Shape.rowMajor_val_two]
      show j.val * 1 + 0 = 0 * 1000 + j.val
      omega)).trans ?_
  refine (broadcastInDim_apply (s := S1000) (t := S1000x1) ![0] bcast_S1000_S1000x1_0 _ (ix2 j (0 : Fin 1)) (ix1 j) ?_).trans ?_
  · intro a
    match a with
    | ⟨0, _⟩ => show j.val = if (1000 : Nat) = 1 then 0 else j.val; rw [if_neg (by decide)]
  simp only [Host.reduceAdd, Ideal.hostReduceAdd_def]
  rw [Ideal.hostReduceAdd_single reducesTo_S1000x128_S1000_d1 (by decide)]
  refine congrArg (_ + ·) (Finset.sum_congr rfl fun k _ => ?_)
  show mulf (F := Ideal) (s := S1000x128) (φ := .f32) (classes m c) (classes m c) _
    = mulf (F := Ideal) (s := S1000x128) (φ := .f32) (classes m c) (classes m c) (ix2 j k)
  refine congrArg (mulf (F := Ideal) (s := S1000x128) (φ := .f32) (classes m c) (classes m c)) ?_
  funext a
  apply Fin.ext
  match a with
  | ⟨0, _⟩ => rfl
  | ⟨1, _⟩ => rfl

/-! ## What a point writes back -/

theorem offsets2_zero : (![0, 0] : Fin 2 → Nat) = fun _ => 0 := funext fun a => by fin_cases a <;> rfl
theorem offsets3_zero : (![0, 0, 0] : Fin 3 → Nat) = fun _ => 0 := funext fun a => by fin_cases a <;> rfl

/-- The printed index maps, decided over the sixteen points: the features', the targets' and the output's block
    move with the point; the class vectors' and the norm row's stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 3) = t.val ∧ win0_4.index t (1 : Fin 3) = 0 ∧ win0_4.index t (2 : Fin 3) = 0 :=
  (by decide +kernel : ∀ t : Fin grid0.N, _)

/-- WHAT POINT `t` WRITES BACK is block `t` of the array of partial sums. -/
theorem writeback_eq (c : Dev nD) (t : Fin cfg0.N) :
    (dats m 0 c).flushed 4 t = ((cfg0.win 4).blk t).view.read (Elt Ideal)
      (blocks (feats m c) (targets m c) (classes m c)) := by
  show (cfg0.win 4).cut (grid0.coords t) ((dats m 0 c).after 4 t) = _
  rw [after0_4]
  unfold out0_4
  rw [View.canon_unit_zero offsets3_zero]
  simp only [View.ld_unit_zero (S := S1024x128) offsets2_zero, View.ld_unit_zero (S := S1000x128) offsets2_zero,
    View.ld_unit_zero (S := S1x1000) offsets2_zero, View.ld_unit_zero (S := S1x1024) offsets2_zero]
  obtain ⟨e00, e01, e10, e11, e20, e21, e30, e31, e40, e41, e42⟩ := block_indices t
  have hlt : t.val < 16 := t.isLt
  funext y
  show k0_pay1 (iblk m c 0 t) (iblk m c 1 t) (iblk m c 2 t) (iblk m c 3 t) y
    = tileSum _ _ _ ((((cfg0.win 4).blk t).view.emb y) 0)
  refine (TileValue.pay_apply (iblk m c 0 t) (iblk m c 1 t) (iblk m c 2 t) (iblk m c 3 t) y).trans ?_
  have hq : (((cfg0.win 4).blk t).view.emb y) 0 = (⟨t.val, hlt⟩ : Fin 16) := Fin.ext (by
    show win0_4.index t (0 : Fin 3) * 1 + 1 * (y 0).val = t.val
    have hy : (y 0).val < 1 := (y 0).isLt
    omega)
  rw [hq]
  unfold tileSum
  refine Cert.TileLaw.value_eq (feats m c) (targets m c) (classes m c)
    (iblk m c 0 t) (iblk m c 1 t) (iblk m c 2 t) (iblk m c 3 t) (rowOf ⟨t.val, hlt⟩) ?_ ?_ ?_ ?_
  · intro r k
    show V m c main_arg0 (((cfg0.win 0).blk t).view.emb (ix2 r k)) = _
    rw [V_main_arg0]
    refine congrArg _ (funext fun a => Fin.ext ?_)
    match a with
    | ⟨0, _⟩ => show win0_0.index t (0 : Fin 2) * 1024 + 1 * r.val = t.val * 1024 + r.val; omega
    | ⟨1, _⟩ => show win0_0.index t (1 : Fin 2) * 128 + 1 * k.val = k.val; omega
  · intro j k
    show V m c main_arg2 (((cfg0.win 1).blk t).view.emb (ix2 j k)) = _
    rw [V_main_arg2]
    refine congrArg _ (funext fun a => Fin.ext ?_)
    match a with
    | ⟨0, _⟩ => show win0_1.index t (0 : Fin 2) * 1000 + 1 * j.val = j.val; omega
    | ⟨1, _⟩ => show win0_1.index t (1 : Fin 2) * 128 + 1 * k.val = k.val; omega
  · intro j
    show V m c main_v4 (((cfg0.win 2).blk t).view.emb (ix2 (0 : Fin 1) j)) = _
    refine Eq.trans (congrArg _ (funext fun a => Fin.ext ?_)) (entry_clsnorm_apply m c j)
    match a with
    | ⟨0, _⟩ => show win0_2.index t (0 : Fin 2) * 1 + 1 * 0 = 0; omega
    | ⟨1, _⟩ => show win0_2.index t (1 : Fin 2) * 1000 + 1 * j.val = j.val; omega
  · intro r
    show V m c main_v0 (((cfg0.win 3).blk t).view.emb (ix2 (0 : Fin 1) r)) = _
    refine Eq.trans (congrArg _ (funext fun a => Fin.ext ?_)) (entry_targets_apply m c (rowOf ⟨t.val, hlt⟩ r))
    match a with
    | ⟨0, _⟩ => show win0_3.index t (0 : Fin 2) * 1 + 1 * 0 = 0; omega
    | ⟨1, _⟩ => show win0_3.index t (1 : Fin 2) * 1024 + 1 * r.val = t.val * 1024 + r.val; omega

/-! ## The array after the region -/

/-- An index of the array is in point `t`'s block iff each coordinate is in the block's range on its axis. -/
theorem mem_block_iff (t : Fin cfg0.N) (i : S16x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v5).slice (win0_4.rect t)).set ↔ _
  rw [View.set_slice_whole, Rect.mem_set_unit]
  exact Iff.rfl

/-- Every index is in the block of the point its leading coordinate names. -/
theorem blocks_cover (i : S16x8x128.Idx) : ∃ t : Fin cfg0.N, (cfg0.win 4).flush t = true ∧ i ∈ ((cfg0.win 4).blk t).view.set := by
  have hi0 : (i 0).val < 16 := (i 0).isLt
  have hi1 : (i 1).val < 8 := (i 1).isLt
  have hi2 : (i 2).val < 128 := (i 2).isLt
  refine ⟨⟨(i 0).val, hi0⟩, flush0_4 _, ?_⟩
  rw [mem_block_iff]
  obtain ⟨-, -, -, -, -, -, -, -, e40, e41, e42⟩ := block_indices ⟨(i 0).val, hi0⟩
  have e40' : win0_4.index ⟨(i 0).val, hi0⟩ (0 : Fin 3) = (i 0).val := e40
  intro a
  match a with
  | ⟨0, _⟩ => show win0_4.index ⟨(i 0).val, hi0⟩ (0 : Fin 3) * 1 ≤ (i 0).val ∧ (i 0).val < win0_4.index ⟨(i 0).val, hi0⟩ (0 : Fin 3) * 1 + 1; omega
  | ⟨1, _⟩ => show win0_4.index ⟨(i 0).val, hi0⟩ (1 : Fin 3) * 8 ≤ (i 1).val ∧ (i 1).val < win0_4.index ⟨(i 0).val, hi0⟩ (1 : Fin 3) * 8 + 8; omega
  | ⟨2, _⟩ => show win0_4.index ⟨(i 0).val, hi0⟩ (2 : Fin 3) * 128 ≤ (i 2).val ∧ (i 2).val < win0_4.index ⟨(i 0).val, hi0⟩ (2 : Fin 3) * 128 + 128; omega

/-- THE ARRAY after the region: the partial sums, block by block. -/
theorem partial_sums_array (c : Dev nD) : (dats m 0 c).arrAt 4 cfg0.N
    = blocks (feats m c) (targets m c) (classes m c) :=
  (dats m 0 c).arrAt_eq_of_cover 4 _ (fun t _ => writeback_eq m c t) blocks_cover

/-! ## The host's tail: every cell summed, divided by 2^24 -/

/-- The sum of the partial sums is the sum of every term. -/
theorem sum_tileSum (a0 : S16384x128.Idx → EReal) (a1 : S16384.Idx → BitVec 32) (a2 : S1000x128.Idx → EReal) :
    ∑ t : Fin 16, tileSum a0 a1 a2 t = ∑ p : (⟨2, ![16384, 1000]⟩ : Shape).Idx, Cert.Hinge.term a0 a1 a2 (p 0) (p 1) :=
  Cert.MeanLaw.sum_tiles (Cert.Hinge.term a0 a1 a2) rowOf (fun _ _ => rfl)

/-- The result buffer after the tail is the loss. -/
theorem result (c : Dev nD) :
    Pipeline.afterTail₀ cfgs (dats m) 0 (V0 m) [hostOps1] c main_v7
      = Cert.Hinge.loss (feats m c) (targets m c) (classes m c) := by
  unfold Pipeline.afterTail₀
  show StableHlo.after hostOps1 _ (Proc.devRef .tc main_v7) = _
  after_results
  have hw := (Pipeline.withArrays_arr spec0 launch0.win.arr_inj c (V0 m c) (fun w => (dats m 0 c).arrAt w (cfgs 0).N) 4).trans (partial_sums_array m c)
  rw [hw]
  funext i
  show Ideal.div (Ideal.hostReduceAdd reducesTo_S16x8x128_S_d0_1_2 (blocks _ _ _) (Ideal.ofBits .f32 0x00000000#32) i) (Ideal.ofBits .f32 0x4B800000#32) = _
  rw [Ideal.hostReduceAdd_total reducesTo_S16x8x128_S_d0_1_2 (fun b => b.elim0)]
  unfold blocks Cert.Hinge.loss
  rw [Cert.MeanLaw.mean_of_blocks, sum_tileSum]

/-! ## The run, read -/

/-- Every weakly fair execution of the kernel's program ends with the loss in its result buffer and its
    arguments as launched. -/
theorem run : θ_run defs (onTc (τ := τ) (main (F := Ideal))) ⟨m, fun _ => 0, ρ⟩ fun r => ∀ c : Dev nD,
      r.2.mem ((c.tc : Thread nD τ).loc main_v7)
        = Cert.Hinge.loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KernelValue

end
-- ==== Proof.lean ====
/-
  The contrastive margin loss, kernel against reference, over the extended reals.

  Both programs compute, for every sample row i and class j, the hinge max(1 − d_ij, 0) of the squared distance
  d_ij = |f_i|² + |c_j|² − 2·⟨f_i, c_j⟩, drop the term where j is the sample's own class, sum, and divide by the
  16384 samples.  The reference does it in one pass over the [16384, 1000] array.  The kernel cuts the samples
  into 16 tiles of 1024 rows; tile t writes its partial sum into all 8·128 cells of block t of a [16, 8, 128]
  array, and the host sums every cell and divides by 8·128·16384 = 2^24.

  The two agree on all extended reals, with no finiteness: the tiles' terms are the reference's terms regrouped
  (a finite sum in a commutative monoid), 8·128 copies of a partial sum S are 1024·S also for S = ±∞, and
  (1024·S)·2^-24 = S·2^-14 by associativity and commutativity of the product.  The kernel's casts to bf16 are
  the identity on the extended reals, its matrix product against the transposed class vectors is the reference's
  contraction, "zero where target = j, else hinge" is "hinge where target ≠ j, else zero", and the class norms
  the host hands the kernel as a row are the reference's.

  The three frames are the generated frame runs (the reference's is its run with the result dropped); the
  idealization rewrote no operation, so `preserves` is trivial.
-/
import proofs.«168286_j90142773609061_2_alg».proof.Defs
import proofs.«168286_j90142773609061_2_alg».proof.Proof.Gen.Kernel
import proofs.«168286_j90142773609061_2_alg».proof.Proof.Gen.Kernel.Skeleton
import proofs.«168286_j90142773609061_2_alg».proof.Proof.Gen.Kernel.Launch
import proofs.«168286_j90142773609061_2_alg».proof.Proof.Gen.Kernel.Points
import proofs.«168286_j90142773609061_2_alg».proof.Proof.Gen.Kernel.Frame
import proofs.«168286_j90142773609061_2_alg».proof.Proof.Gen.KernelIdeal
import proofs.«168286_j90142773609061_2_alg».proof.Proof.Gen.KernelIdeal.Skeleton
import proofs.«168286_j90142773609061_2_alg».proof.Proof.Gen.KernelIdeal.Launch
import proofs.«168286_j90142773609061_2_alg».proof.Proof.Gen.KernelIdeal.Points
import proofs.«168286_j90142773609061_2_alg».proof.Proof.Gen.KernelIdeal.Frame
import proofs.«168286_j90142773609061_2_alg».proof.Proof.Gen.ReferenceIdeal
import proofs.«168286_j90142773609061_2_alg».proof.Proof.Gen.ReferenceIdeal.Run
import proofs.«168286_j90142773609061_2_alg».proof.Proof.Gen.ReferenceIdeal.Read
import proofs.«168286_j90142773609061_2_alg».proof.Proof.Gen.Pre_finite_inputs
import proofs.«168286_j90142773609061_2_alg».proof.Proof.RefValue
import proofs.«168286_j90142773609061_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the loss of the (agreeing) arguments in their result buffers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
